-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S4096x204 : Shape := ⟨2, ![4096, 204]⟩
abbrev S204 : Shape := ⟨1, ![204]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x204 : S_.BroadcastsInDim S4096x204 (![] : Fin 0 → Fin S4096x204.rank)
  reducesTo_S4096x204_S_d0_1 : S4096x204.ReducesTo [0, 1] S_

variable [Facts]

def fn_part1 {F : FTy → Type} [FloatOps F] (main_v13 : IVec S_ 1) (main_v16 : IVec S4096x204 1) : IVec S_ 1 :=
  let main_c_5 : IVec S_ 1 := constantI S_ 1 1#1
  let main_v17 : IVec S_ 1 := (fun x v => Host.reduce IntOp.andi x v reducesTo_S4096x204_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096 .f32) (main_arg3 : FVec F S4096x204 .f32) (main_arg4 : IVec S204 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x204 .f32 := Host.absf main_arg3
  let main_cst_4 : FVec F S_ .f32 := constant S_ .f32 0x7F800000#32
  let main_v15 : FVec F S4096x204 .f32 := broadcastInDim S4096x204 ![] bcast_S_S4096x204 main_cst_4
  let main_v16 : IVec S4096x204 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4096x204 : Shape := ⟨2, ![4096, 204]⟩
abbrev S204 : Shape := ⟨1, ![204]⟩
abbrev S_ : Shape := ⟨0, ![]⟩
abbrev S4096x1 : Shape := ⟨2, ![4096, 1]⟩
abbrev S204x1 : Shape := ⟨2, ![204, 1]⟩
abbrev S8192x4096 : Shape := ⟨2, ![8192, 4096]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 39
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x204, .f32⟩
  | .hbm, ⟨4, _⟩ => ⟨S204, .i32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .i32⟩
  | .hbm, ⟨24, _⟩ => ⟨S204, .i32⟩
  | .hbm, ⟨25, _⟩ => ⟨S204, .i1⟩
  | .hbm, ⟨26, _⟩ => ⟨S_, .i32⟩
  | .hbm, ⟨27, _⟩ => ⟨S204, .i32⟩
  | .hbm, ⟨28, _⟩ => ⟨S204, .i32⟩
  | .hbm, ⟨29, _⟩ => ⟨S204, .i32⟩
  | .hbm, ⟨30, _⟩ => ⟨S204x1, .i32⟩
  | .hbm, ⟨31, _⟩ => ⟨S4096x4096, .f32⟩
  | .hbm, ⟨32, _⟩ => ⟨S4096x4096, .bf16⟩
  | .hbm, ⟨33, _⟩ => ⟨S4096x4096, .bf16⟩
  | .hbm, ⟨34, _⟩ => ⟨S8192x4096, .f32⟩
  | .hbm, ⟨35, _⟩ => ⟨S8192x4096, .bf16⟩
  | .hbm, ⟨36, _⟩ => ⟨S1x4096, .f32⟩
  | .hbm, ⟨37, _⟩ => ⟨S8192x4096, .f32⟩
  | .hbm, ⟨38, _⟩ => ⟨S4x2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S204 : S_.BroadcastsInDim S204 (![] : Fin 0 → Fin S204.rank)
  bcast_S204_S204x1_0 : S204.BroadcastsInDim S204x1 (![0] : Fin 1 → Fin S204x1.rank)
  bitsLt_bf16_f32 : FTy.bits .bf16 < FTy.bits .f32
  transposes_S4096x4096_S4096x4096_1_0 : S4096x4096.Transposes [1, 0] S4096x4096
  shapeCasts_S4x2048x4096_S8192x4096 : S4x2048x4096.ShapeCasts S8192x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  scatter_S4096x4096_S204x1_S4096x204_0_1_1_1_wf : ScatterDims.WF S4096x4096 S204x1 S4096x204 [0] [1] [1] 1
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def scatter_S4096x4096_S204x1_S4096x204_0_1_1_1 : ScatterDims S4096x4096 S204x1 S4096x204 where
  updateWindowDims := [0]
  insertedWindowDims := [1]
  scatterDimsToOperandDims := [1]
  indexVectorDim := 1
  wf := scatter_S4096x4096_S204x1_S4096x204_0_1_1_1_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v24) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x204 : Shape := ⟨2, ![4096, 204]⟩
abbrev S204 : Shape := ⟨1, ![204]⟩
abbrev S_ : Shape := ⟨0, ![]⟩
abbrev S4096x1 : Shape := ⟨2, ![4096, 1]⟩
abbrev S204x1 : Shape := ⟨2, ![204, 1]⟩
abbrev S1x1x4096 : Shape := ⟨3, ![1, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x204, .f32⟩
  | .hbm, ⟨4, _⟩ => ⟨S204, .i32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .i32⟩
  | .hbm, ⟨24, _⟩ => ⟨S204, .i32⟩
  | .hbm, ⟨25, _⟩ => ⟨S204, .i1⟩
  | .hbm, ⟨26, _⟩ => ⟨S_, .i32⟩
  | .hbm, ⟨27, _⟩ => ⟨S204, .i32⟩
  | .hbm, ⟨28, _⟩ => ⟨S204, .i32⟩
  | .hbm, ⟨29, _⟩ => ⟨S204, .i32⟩
  | .hbm, ⟨30, _⟩ => ⟨S204x1, .i32⟩
  | .hbm, ⟨31, _⟩ => ⟨S4096x4096, .f32⟩
  | .hbm, ⟨32, _⟩ => ⟨S4x2048x4096, .f32⟩
  | .hbm, ⟨33, _⟩ => ⟨S1x1x4096, .f32⟩
  | .hbm, ⟨34, _⟩ => ⟨S4x2048x4096, .f32⟩
  | .hbm, ⟨35, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S204 : S_.BroadcastsInDim S204 (![] : Fin 0 → Fin S204.rank)
  bcast_S204_S204x1_0 : S204.BroadcastsInDim S204x1 (![0] : Fin 1 → Fin S204x1.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  scatter_S4096x4096_S204x1_S4096x204_0_1_1_1_wf : ScatterDims.WF S4096x4096 S204x1 S4096x204 [0] [1] [1] 1
  dot_S4x2048x4096_S4096x4096_S4x2048x4096_2_1_01_0_n_n_wf : DotDims.WF S4x2048x4096 S4096x4096 S4x2048x4096 [2] [1] [0, 1] [0] [] []

variable [Facts₀]

def scatter_S4096x4096_S204x1_S4096x204_0_1_1_1 : ScatterDims S4096x4096 S204x1 S4096x204 where
  updateWindowDims := [0]
  insertedWindowDims := [1]
  scatterDimsToOperandDims := [1]
  indexVectorDim := 1
  wf := scatter_S4096x4096_S204x1_S4096x204_0_1_1_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibRangeSums.lean ====
/-
  Finite sums over ranges of naturals, in any additive commutative monoid.

  A function of an index below N is extended by zero to every natural (`extRow`), so that positions inside blocks can be
  named by arithmetic on naturals; a range sum of length a·b splits into a blocks of length b (`sum_range_mul`); a sum
  over `Fin b` of a function of the underlying natural is the range sum (`sum_fin_nat`). Nothing here mentions a
  program: the lemmas serve any proof that regroups a long sum into tiles.
-/
import Mathlib

noncomputable section

namespace Cert.SumLaws

open Finset

variable {M : Type*} [AddCommMonoid M]

/-- A function of an index below `N`, extended by zero to every natural. -/
def extRow {N : ℕ} (f : Fin N → M) (n : ℕ) : M := if h : n < N then f ⟨n, h⟩ else 0

/-- Below `N` the extension is the function. -/
theorem extRow_of_lt {N : ℕ} (f : Fin N → M) (n : ℕ) (h : n < N) : extRow f n = f ⟨n, h⟩ := dif_pos h

/-- Summed over the first `N` naturals the extension is the sum over the indices. -/
theorem sum_range_extRow {N : ℕ} (f : Fin N → M) : ∑ n ∈ range N, extRow f n = ∑ n : Fin N, f n := by
  rw [Finset.sum_fin_eq_sum_range]
  rfl

/-- A range sum of length `a * b`, block by block: block `p` holds the positions `p * b + q`, `q < b`. -/
theorem sum_range_mul (a b : ℕ) (f : ℕ → M) :
    ∑ n ∈ range (a * b), f n = ∑ p ∈ range a, ∑ q ∈ range b, f (p * b + q) := by
  induction a with
  | zero => simp
  | succ a ih =>
    rw [Nat.succ_mul, Finset.sum_range_add, ih, Finset.sum_range_succ]

/-- A sum over `Fin b` of a function of the underlying natural is the range sum. -/
theorem sum_fin_nat (b : ℕ) (f : ℕ → M) : ∑ q : Fin b, f q.val = ∑ q ∈ range b, f q :=
  Fin.sum_univ_eq_sum_range f b

end Cert.SumLaws

end
-- ==== Proof.NatIndexed.lean ====
/-
  Matrix entries named by natural-number coordinates, and a long sum taken in four blocks.

  A block of a matrix at a grid point starts at (block row · height, block column · width); naming an entry by the
  natural numbers (row, column), with the value zero outside the matrix, lets block positions be written as plain
  arithmetic. Inside the matrix the name is the entry. A sum over 4096 positions is the sum over four consecutive
  blocks of 1024, in any additive commutative monoid — the extended reals among them, where addition is associative
  and commutative though not cancellative.
-/
import Idealize.ShloMosaic.Lib.ValueIdx
import proofs.«154130_j83588653515071_2_alg».proof.Proof.LibRangeSums

noncomputable section

open Idealize.ShloMosaic Idealize.ShloMosaic.ValueIdx

namespace Cert.NatIndexed

variable {α : Type} [Zero α]

/-- The entry at row `r`, column `k` of an `A × B` matrix; zero when (r, k) is outside it. -/
def at2 {A B : ℕ} (X : (⟨2, ![A, B]⟩ : Shape).Idx → α) (r k : ℕ) : α :=
  if h : r < A ∧ k < B then X (ix2 ⟨r, h.1⟩ ⟨k, h.2⟩) else 0

/-- At an index of the matrix it is the entry there. -/
theorem at2_idx {A B : ℕ} (X : (⟨2, ![A, B]⟩ : Shape).Idx → α) (i : (⟨2, ![A, B]⟩ : Shape).Idx) :
    at2 X (i 0).val (i 1).val = X i := by
  unfold at2
  rw [dif_pos ⟨(i 0).isLt, (i 1).isLt⟩]
  exact congrArg X (eq_ix2 i).symm

/-- The same with the index given by its coordinates. -/
theorem at2_ix2 {A B : ℕ} (X : (⟨2, ![A, B]⟩ : Shape).Idx → α) (a : Fin A) (b : Fin B) :
    at2 X a.val b.val = X (ix2 a b) := at2_idx X (ix2 a b)

/-- A sum over 4096 positions, taken as four consecutive blocks of 1024. -/
theorem sum_four_blocks {M : Type*} [AddCommMonoid M] (g : ℕ → M) :
    ∑ kb ∈ Finset.range 4, ∑ kk ∈ Finset.range 1024, g (kb * 1024 + kk) = ∑ K : Fin 4096, g K.val := by
  rw [← Cert.SumLaws.sum_range_mul 4 1024 g]
  exact (Fin.sum_univ_eq_sum_range g 4096).symm

end Cert.NatIndexed

end
-- ==== Proof.BlockIndex.lean ====
/-
  Which block each window is on at each grid point.

  The grid has 4 × 4 × 4 points, numbered t = 16·I + 4·J + K with K (the step along the contraction axis) moving
  fastest: I = t / 16, J = t / 4 mod 4, K = t mod 4. The left operand's window is on block (I, K), the right operand's
  on block (K, J), the bias row's on block (0, J), the output's on block (I, J). The 64 points are checked one by one.
-/
import proofs.«154130_j83588653515071_2_alg».proof.Proof.Gen.KernelIdeal.Frame
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

theorem block_of_point : ∀ t : Fin cfg0.N,
    win0_0.index t 0 = t.val / 16 ∧ win0_0.index t 1 = t.val % 4
    ∧ win0_1.index t 0 = t.val % 4 ∧ win0_1.index t 1 = t.val / 4 % 4
    ∧ win0_2.index t 0 = 0 ∧ win0_2.index t 1 = t.val / 4 % 4
    ∧ win0_3.index t 0 = t.val / 16 ∧ win0_3.index t 1 = t.val / 4 % 4 :=
  (by decide +kernel : ∀ t : Fin grid0.N,
    win0_0.index t 0 = t.val / 16 ∧ win0_0.index t 1 = t.val % 4
    ∧ win0_1.index t 0 = t.val % 4 ∧ win0_1.index t 1 = t.val / 4 % 4
    ∧ win0_2.index t 0 = 0 ∧ win0_2.index t 1 = t.val / 4 % 4
    ∧ win0_3.index t 0 = t.val / 16 ∧ win0_3.index t 1 = t.val / 4 % 4)

end Cert.KernelIdeal.Blocks

end
-- ==== Proof.BlockPos.lean ====
/-
  Where an entry of a window's block sits in the window's array.

  A block of height h and width w on block row a and block column b starts at array position (a·h, b·w); its entry
  (p, k) is the array's entry (a·h + p, b·w + k). Stated per window and per axis, with the block's row or column at the
  point as a hypothesis.
-/
import proofs.«154130_j83588653515071_2_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen

theorem lhs_row_pos (t : Fin cfg0.N) (p : Fin 2048) (k : Fin 1024) (hi : win0_0.index t 0 = t.val / 16) :
    ((((cfg0.win 0).blk t).view.emb (ix2 p k)) 0).val = t.val / 16 * 2048 + p.val := by
  refine (Pipeline.Window.rect_emb_val win0_0 t (ix2 p k) 0).trans ?_
  rw [hi]
  rfl
theorem lhs_col_pos (t : Fin cfg0.N) (p : Fin 2048) (k : Fin 1024) (hi : win0_0.index t 1 = t.val % 4) :
    ((((cfg0.win 0).blk t).view.emb (ix2 p k)) 1).val = t.val % 4 * 1024 + k.val := by
  refine (Pipeline.Window.rect_emb_val win0_0 t (ix2 p k) 1).trans ?_
  rw [hi]
  rfl
theorem rhs_row_pos (t : Fin cfg0.N) (k : Fin 1024) (r : Fin 1024) (hi : win0_1.index t 0 = t.val % 4) :
    ((((cfg0.win 1).blk t).view.emb (ix2 k r)) 0).val = t.val % 4 * 1024 + k.val := by
  refine (Pipeline.Window.rect_emb_val win0_1 t (ix2 k r) 0).trans ?_
  rw [hi]
  rfl
theorem rhs_col_pos (t : Fin cfg0.N) (k : Fin 1024) (r : Fin 1024) (hi : win0_1.index t 1 = t.val / 4 % 4) :
    ((((cfg0.win 1).blk t).view.emb (ix2 k r)) 1).val = t.val / 4 % 4 * 1024 + r.val := by
  refine (Pipeline.Window.rect_emb_val win0_1 t (ix2 k r) 1).trans ?_
  rw [hi]
  rfl
theorem bias_row_pos (t : Fin cfg0.N) (r : Fin 1024) (hi : win0_2.index t 0 = 0) :
    ((((cfg0.win 2).blk t).view.emb (ix2 (0 : Fin 1) r)) 0).val = 0 := by
  refine (Pipeline.Window.rect_emb_val win0_2 t (ix2 (0 : Fin 1) r) 0).trans ?_
  rw [hi]
  rfl
theorem bias_col_pos (t : Fin cfg0.N) (r : Fin 1024) (hi : win0_2.index t 1 = t.val / 4 % 4) :
    ((((cfg0.win 2).blk t).view.emb (ix2 (0 : Fin 1) r)) 1).val = t.val / 4 % 4 * 1024 + r.val := by
  refine (Pipeline.Window.rect_emb_val win0_2 t (ix2 (0 : Fin 1) r) 1).trans ?_
  rw [hi]
  rfl
theorem out_row_pos (t : Fin cfg0.N) (p : Fin 2048) (r : Fin 1024) (hi : win0_3.index t 0 = t.val / 16) :
    ((((cfg0.win 3).blk t).view.emb (ix2 p r)) 0).val = t.val / 16 * 2048 + p.val := by
  refine (Pipeline.Window.rect_emb_val win0_3 t (ix2 p r) 0).trans ?_
  rw [hi]
  rfl
theorem out_col_pos (t : Fin cfg0.N) (p : Fin 2048) (r : Fin 1024) (hi : win0_3.index t 1 = t.val / 4 % 4) :
    ((((cfg0.win 3).blk t).view.emb (ix2 p r)) 1).val = t.val / 4 % 4 * 1024 + r.val := by
  refine (Pipeline.Window.rect_emb_val win0_3 t (ix2 p r) 1).trans ?_
  rw [hi]
  rfl

end Cert.KernelIdeal.Blocks

end
-- ==== Proof.StagedArrays.lean ====
/-
  The three arrays the region is handed, named.

  Before the region the program computes, on the host, the left operand (the input reshaped to [8192, 4096]), the right
  operand (the quantized weight with its outlier columns, transposed: [4096, 4096]) and the bias as a row [1, 4096].
  Everything about the region itself treats them as three fixed arrays; what they are in terms of the program's inputs
  is used once, at the end. They are therefore given names that do not unfold by themselves.
-/
import proofs.«154130_j83588653515071_2_alg».proof.Proof.Gen.KernelIdeal.Frame
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The left operand as the region finds it: [8192, 4096]. -/
def lhsArr (c : Dev nD) : S8192x4096.Idx → EReal := V m c main_v24
/-- The right operand as the region finds it: [4096, 4096]. -/
def rhsArr (c : Dev nD) : S4096x4096.Idx → EReal := V m c main_v22
/-- The bias row as the region finds it: [1, 4096]. -/
def biasArr (c : Dev nD) : S1x4096.Idx → EReal := V m c main_v25

theorem lhsArr_def (c : Dev nD) : lhsArr m c = V m c main_v24 := rfl
theorem rhsArr_def (c : Dev nD) : rhsArr m c = V m c main_v22 := rfl
theorem biasArr_def (c : Dev nD) : biasArr m c = V m c main_v25 := rfl

attribute [irreducible] lhsArr rhsArr biasArr

end Cert.KernelIdeal.Blocks

end
-- ==== Proof.Blocks.lean ====
/-
  The windows' blocks at a grid point, as entries of the arrays the region is handed.

  At point t = 16·I + 4·J + K the body is handed the [2048, 1024] block (I, K) of the [8192, 4096] left operand, the
  [1024, 1024] block (K, J) of the [4096, 4096] right operand and the [1, 1024] block (0, J) of the [1, 4096] bias row. Each
  entry of a block is named here as an entry of its array by natural-number coordinates — first for an arbitrary array
  read through the window, then for the three arrays the region is handed.
-/
import proofs.«154130_j83588653515071_2_alg».proof.Proof.Gen.KernelIdeal.Frame
import proofs.«154130_j83588653515071_2_alg».proof.Proof.NatIndexed
import proofs.«154130_j83588653515071_2_alg».proof.Proof.BlockIndex
import proofs.«154130_j83588653515071_2_alg».proof.Proof.BlockPos
import proofs.«154130_j83588653515071_2_alg».proof.Proof.StagedArrays
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen Cert.NatIndexed

/-- Any [8192, 4096] array read through the left window at point t, entry (p, k): the array at (I·2048 + p, K·1024 + k). -/
theorem lhs_read_apply (X : S8192x4096.Idx → EReal) (t : Fin cfg0.N) (p : Fin 2048) (k : Fin 1024) :
    (((cfg0.win 0).blk t).view.read (Elt Ideal) X) (ix2 p k) = at2 X (t.val / 16 * 2048 + p.val) (t.val % 4 * 1024 + k.val) := by
  rw [View.read_apply]
  refine (at2_idx X (((cfg0.win 0).blk t).view.emb (ix2 p k))).symm.trans ?_
  exact congrArg₂ (at2 X) (lhs_row_pos t p k (block_of_point t).1) (lhs_col_pos t p k (block_of_point t).2.1)
/-- Any [4096, 4096] array read through the right window at point t, entry (k, r): the array at (K·1024 + k, J·1024 + r). -/
theorem rhs_read_apply (X : S4096x4096.Idx → EReal) (t : Fin cfg0.N) (k : Fin 1024) (r : Fin 1024) :
    (((cfg0.win 1).blk t).view.read (Elt Ideal) X) (ix2 k r) = at2 X (t.val % 4 * 1024 + k.val) (t.val / 4 % 4 * 1024 + r.val) := by
  rw [View.read_apply]
  refine (at2_idx X (((cfg0.win 1).blk t).view.emb (ix2 k r))).symm.trans ?_
  exact congrArg₂ (at2 X) (rhs_row_pos t k r (block_of_point t).2.2.1) (rhs_col_pos t k r (block_of_point t).2.2.2.1)
/-- Any [1, 4096] row read through the bias window at point t, entry (0, r): the row at column J·1024 + r. -/
theorem bias_read_apply (X : S1x4096.Idx → EReal) (t : Fin cfg0.N) (r : Fin 1024) :
    (((cfg0.win 2).blk t).view.read (Elt Ideal) X) (ix2 (0 : Fin 1) r) = at2 X (0) (t.val / 4 % 4 * 1024 + r.val) := by
  rw [View.read_apply]
  refine (at2_idx X (((cfg0.win 2).blk t).view.emb (ix2 (0 : Fin 1) r))).symm.trans ?_
  exact congrArg₂ (at2 X) (bias_row_pos t r (block_of_point t).2.2.2.2.1) (bias_col_pos t r (block_of_point t).2.2.2.2.2.1)
/-- Any [8192, 4096] array read through the output window at point t, entry (p, r): the array at (I·2048 + p, J·1024 + r). -/
theorem out_read_apply (X : S8192x4096.Idx → EReal) (t : Fin cfg0.N) (p : Fin 2048) (r : Fin 1024) :
    (((cfg0.win 3).blk t).view.read (Elt Ideal) X) (ix2 p r) = at2 X (t.val / 16 * 2048 + p.val) (t.val / 4 % 4 * 1024 + r.val) := by
  rw [View.read_apply]
  refine (at2_idx X (((cfg0.win 3).blk t).view.emb (ix2 p r))).symm.trans ?_
  exact congrArg₂ (at2 X) (out_row_pos t p r (block_of_point t).2.2.2.2.2.2.1) (out_col_pos t p r (block_of_point t).2.2.2.2.2.2.2)

variable (m : (ℓ : Loc nD τ sig) → Buf (Elt Ideal) ℓ)

/-- The left operand's block at point t, as a [2048, 1024] array of extended reals. -/
abbrev lhsBlk (c : Dev nD) (t : Fin cfg0.N) : Vec Ideal S2048x1024 .bf16 := iblk m c 0 t
/-- The right operand's block at point t, as a [1024, 1024] array of extended reals. -/
abbrev rhsBlk (c : Dev nD) (t : Fin cfg0.N) : Vec Ideal S1024x1024 .bf16 := iblk m c 1 t
/-- The bias row's block at point t, as a [1, 1024] array of extended reals. -/
abbrev biasBlk (c : Dev nD) (t : Fin cfg0.N) : Vec Ideal S1x1024 .f32 := iblk m c 2 t

/-- The left block at point t, entry (p, k). -/
theorem lhsBlock_apply (c : Dev nD) (t : Fin cfg0.N) (p : Fin 2048) (k : Fin 1024) :
    lhsBlk m c t (ix2 p k) = at2 (lhsArr m c) (t.val / 16 * 2048 + p.val) (t.val % 4 * 1024 + k.val) := by
  rw [lhsArr_def]
  exact lhs_read_apply (V m c main_v24) t p k

/-- The right block at point t, entry (k, r). -/
theorem rhsBlock_apply (c : Dev nD) (t : Fin cfg0.N) (k : Fin 1024) (r : Fin 1024) :
    rhsBlk m c t (ix2 k r) = at2 (rhsArr m c) (t.val % 4 * 1024 + k.val) (t.val / 4 % 4 * 1024 + r.val) := by
  rw [rhsArr_def]
  exact rhs_read_apply (V m c main_v22) t k r

/-- The bias block at point t, entry (0, r). -/
theorem biasBlock_apply (c : Dev nD) (t : Fin cfg0.N) (r : Fin 1024) :
    biasBlk m c t (ix2 (0 : Fin 1) r) = at2 (biasArr m c) 0 (t.val / 4 % 4 * 1024 + r.val) := by
  rw [biasArr_def]
  exact bias_read_apply (V m c main_v25) t r

end Cert.KernelIdeal.Blocks

end
-- ==== Proof.FoundPieces.lean ====
/-
  What the matmul body leaves behind at one grid point, read as values.

  The body keeps a running [2048, 1024] accumulator in a scratch buffer that lives across the grid's points. At a
  point it may first clear the accumulator (the first step along the contraction axis), then always adds to it the
  product of the point's [2048, 1024] block of the left operand with its [1024, 1024] block of the right operand,
  and, at the last step along the contraction axis, stores the accumulator plus the bias row (broadcast down the
  2048 rows) into the output block.

  Three kinds of point occur: the first contraction step (clear, then add), a middle step (add), the last step (add,
  then write the output). For each, the accumulator's contents after the body, and for the last also the output
  block's, are the body's arithmetic terms applied to the blocks the point was handed: the product-and-add term
  `k0_pay2 acc a b`, the zero block `k0_pay1`, and the bias-add term `k0_pay3 acc bias`. Every load and store of the body
  covers its whole buffer, so a buffer read back after a store holds exactly what was stored.
-/
import proofs.«154130_j83588653515071_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]

theorem hz : (![0, 0] : Fin 2 → Nat) = fun _ => 0 := funext fun a => by fin_cases a <;> rfl

/-- First contraction step: the accumulator is cleared, read back, and left at the zero block plus the product of the
    two operand blocks. -/
theorem acc_first (c : Dev nD) (i : grid0.Coords)
    (a3 : Memref sig .tc .vmem S2048x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S2048x1024 .f32) (h6 : a6.IsWhole)
    (a7 : Memref sig .tc .vmem S2048x1024 .f32) (h7 : a7.IsWhole) (hc0 : cond0_0 i) (hc1 : ¬cond0_1 i)
    (x0 : Vec F S2048x1024 .bf16) (x1 : Vec F S1024x1024 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, h3.read_unread, h4.read_unread, h5.read_unread, h7.read_unread,
    View.ld_unit_zero (S := S2048x1024) hz, View.ld_unit_zero (S := S1024x1024) hz, View.ld_unit_zero (S := S1x1024) hz]

/-- A middle contraction step: the accumulator the point before left, plus the product of the two operand blocks. -/
theorem acc_middle (c : Dev nD) (i : grid0.Coords)
    (a3 : Memref sig .tc .vmem S2048x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S2048x1024 .f32) (h6 : a6.IsWhole)
    (a7 : Memref sig .tc .vmem S2048x1024 .f32) (h7 : a7.IsWhole) (hc0 : ¬cond0_0 i) (hc1 : ¬cond0_1 i)
    (x0 : Vec F S2048x1024 .bf16) (x1 : Vec F S1024x1024 .bf16) (x2 : Vec F S1x1024 .f32) (xs0 : Vec F S2048x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero (S := S2048x1024) hz]
  simp only [View.readAt_eq_ld, h3.read_unread, h4.read_unread, h5.read_unread, h7.read_unread,
    View.ld_unit_zero (S := S2048x1024) hz, View.ld_unit_zero (S := S1024x1024) hz, View.ld_unit_zero (S := S1x1024) hz]

/-- The last contraction step leaves the accumulator as a middle step does, -/
theorem acc_last (c : Dev nD) (i : grid0.Coords)
    (a3 : Memref sig .tc .vmem S2048x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S2048x1024 .f32) (h6 : a6.IsWhole)
    (a7 : Memref sig .tc .vmem S2048x1024 .f32) (h7 : a7.IsWhole) (hc0 : ¬cond0_0 i) (hc1 : cond0_1 i)
    (x0 : Vec F S2048x1024 .bf16) (x1 : Vec F S1024x1024 .bf16) (x2 : Vec F S1x1024 .f32) (xs0 : Vec F S2048x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero (S := S2048x1024) hz]
  simp only [View.readAt_eq_ld, h3.read_unread, h4.read_unread, h5.read_unread, h7.read_unread,
    View.ld_unit_zero (S := S2048x1024) hz, View.ld_unit_zero (S := S1024x1024) hz, View.ld_unit_zero (S := S1x1024) hz]

/-- and writes the output block: that accumulator, read back, plus the bias row broadcast over the rows. -/
theorem out_last (c : Dev nD) (i : grid0.Coords)
    (a3 : Memref sig .tc .vmem S2048x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S2048x1024 .f32) (h6 : a6.IsWhole)
    (a7 : Memref sig .tc .vmem S2048x1024 .f32) (h7 : a7.IsWhole) (hc0 : ¬cond0_0 i) (hc1 : cond0_1 i)
    (x0 : Vec F S2048x1024 .bf16) (x1 : Vec F S1024x1024 .bf16) (x2 : Vec F S1x1024 .f32) (xs0 : Vec F S2048x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero (S := S2048x1024) hz, View.readCov_unit_zero (S := S2048x1024) _ hz]
  simp only [View.readAt_eq_ld, h3.read_unread, h4.read_unread, h5.read_unread, h7.read_unread,
    View.ld_unit_zero (S := S2048x1024) hz, View.ld_unit_zero (S := S1024x1024) hz, View.ld_unit_zero (S := S1x1024) hz]

end Cert.KernelIdeal.Found

end
-- ==== Proof.BodyArith.lean ====
/-
  The matmul body's arithmetic at the exact (extended-real) values, entry by entry.

  At the exact values a change of float format is the identity and a block product into a zero accumulator is the plain
  sum of products. So, at row `p` and column `r` of a [2048, 1024] block:
    the zero block is 0;
    the product-and-add term is  acc(p, r) + Σ_{k < 1024} a(p, k) · b(k, r);
    the bias-add term is         acc(p, r) + bias(0, r).
  The block product contracts the left block's second axis with the right block's first axis; its one contraction
  index is re-indexed by its coordinate.
-/
import proofs.«154130_j83588653515071_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Arith

open Cert.KernelIdeal Cert.KernelIdeal.Gen

/-- The block product's dimension numbers: rows of the left block against columns of the right block. -/
abbrev blockDot : DotDims S2048x1024 S1024x1024 S2048x1024 := dot_S2048x1024_S1024x1024_S2048x1024_1_0_0_1_n_n

/-- The left operand is read in the output's row, -/
theorem lhs_row (j : S2048x1024.Idx) (q : blockDot.contr.Idx) : (blockDot.lhsIdx j q 0).val = (j 0).val := by
  unfold DotDims.lhsIdx
  rw [dif_neg (show ¬(0 : Fin S2048x1024.rank) ∈ blockDot.lhsBatch by decide),
    dif_pos (show (0 : Fin S2048x1024.rank) ∈ blockDot.lhsNonContracting by decide)]
  rfl
/-- at the contraction index; -/
theorem lhs_col (j : S2048x1024.Idx) (q : blockDot.contr.Idx) : (blockDot.lhsIdx j q 1).val = (q ⟨0, by decide⟩).val :=
  blockDot.lhsIdx_val_of_single rfl j q
/-- the right operand at the contraction index, -/
theorem rhs_row (j : S2048x1024.Idx) (q : blockDot.contr.Idx) : (blockDot.rhsIdx j q 0).val = (q ⟨0, by decide⟩).val :=
  blockDot.rhsIdx_val_of_single rfl j q
/-- in the output's column. -/
theorem rhs_col (j : S2048x1024.Idx) (q : blockDot.contr.Idx) : (blockDot.rhsIdx j q 1).val = (j 1).val := by
  unfold DotDims.rhsIdx
  rw [dif_neg (show ¬(1 : Fin S1024x1024.rank) ∈ blockDot.rhsBatch by decide),
    dif_pos (show (1 : Fin S1024x1024.rank) ∈ blockDot.rhsNonContracting by decide)]
  rfl

/-- The block product into the zero accumulator, at (p, r): the sum over k of a(p, k) · b(k, r). -/
theorem blockProduct_apply (a : FVec Ideal S2048x1024 .bf16) (b : FVec Ideal S1024x1024 .bf16) (p : Fin 2048) (r : Fin 1024) :
    matmul blockDot none a b (constant (F := Ideal) S2048x1024 .f32 0x00000000#32) (ix2 p r)
      = ∑ k : Fin 1024, a (ix2 p k) * b (ix2 k r) := by
  simp only [matmul]
  rw [Ideal.matmul_constant_zero_apply, ← Equiv.sum_comp (contrEquiv1 blockDot 1024 rfl rfl).symm]
  refine Finset.sum_congr rfl fun k _ => ?_
  have hk := contrEquiv1_symm_val blockDot 1024 rfl rfl k
  have el : blockDot.lhsIdx (ix2 p r) ((contrEquiv1 blockDot 1024 rfl rfl).symm k) = ix2 p k := funext fun ax => Fin.ext (by
    match ax with
    | ⟨0, _⟩ => exact lhs_row _ _
    | ⟨1, _⟩ => exact (lhs_col _ _).trans hk)
  have er : blockDot.rhsIdx (ix2 p r) ((contrEquiv1 blockDot 1024 rfl rfl).symm k) = ix2 k r := funext fun ax => Fin.ext (by
    match ax with
    | ⟨0, _⟩ => exact (rhs_row _ _).trans hk
    | ⟨1, _⟩ => exact rhs_col _ _)
  rw [el, er]

/-- The cleared accumulator is zero everywhere. -/
theorem zeroBlock_apply (j : S2048x1024.Idx) : k0_pay1 (F := Ideal) j = 0 := by
  unfold k0_pay1
  rw [shapeCast_self]
  exact Ideal.ofBits_zero_f32

/-- Product-and-add at (p, r). -/
theorem addProduct_apply (acc : Vec Ideal S2048x1024 .f32) (a : Vec Ideal S2048x1024 .bf16) (b : Vec Ideal S1024x1024 .bf16)
    (p : Fin 2048) (r : Fin 1024) :
    k0_pay2 (F := Ideal) acc a b (ix2 p r) = acc (ix2 p r) + ∑ k : Fin 1024, a (ix2 p k) * b (ix2 k r) := by
  unfold k0_pay2
  rw [shapeCast_self, shapeCast_self, shapeCast_self]
  exact congrArg (acc (ix2 p r) + ·) (blockProduct_apply a b p r)

/-- Bias-add at (p, r): the bias block has one row, read at column r. -/
theorem addBias_apply (acc : Vec Ideal S2048x1024 .f32) (bias : Vec Ideal S1x1024 .f32) (p : Fin 2048) (r : Fin 1024) :
    k0_pay3 (F := Ideal) acc bias (ix2 p r) = acc (ix2 p r) + bias (ix2 (0 : Fin 1) r) := by
  unfold k0_pay3
  rw [shapeCast_self]
  exact congrArg (acc (ix2 p r) + ·) (broadcastTo_1b_ab_apply bias broadcasts_S1x1024_S2048x1024 p r)

end Cert.KernelIdeal.Arith

end
-- ==== Proof.Accumulate.lean ====
/-
  The accumulator across the grid: a running sum of block products.

  Fix an output block (I, J). The four points t = 16·I + 4·J + K, K = 0, 1, 2, 3, visit it in order. For an output entry in
  array row R and array column C write
      step(R, C, K) = Σ_{kk < 1024} left(R, K·1024 + kk) · right(K·1024 + kk, C),
  the products of step K of the contraction. The first point leaves 0 + step(·, ·, 0) in the accumulator, each later
  point adds its own step, so after point K the accumulator holds Σ_{K' ≤ K} step(·, ·, K') — by induction over the
  points, using only that 0 is neutral and that a range sum extends by one term. At K = 3 the output block receives
  that sum plus the bias entry of its column.
-/
import proofs.«154130_j83588653515071_2_alg».proof.Proof.Gen.KernelIdeal.Frame
import proofs.«154130_j83588653515071_2_alg».proof.Proof.FoundPieces
import proofs.«154130_j83588653515071_2_alg».proof.Proof.BodyArith
import proofs.«154130_j83588653515071_2_alg».proof.Proof.Blocks

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Blocks Cert.NatIndexed

variable (m : (ℓ : Loc nD τ sig) → Buf (Elt Ideal) ℓ)

/-- Step `kb` of the contraction for the output entry in array row `R`, array column `C`: 1024 products. -/
def stepSum (c : Dev nD) (R C kb : ℕ) : EReal :=
  ∑ kk ∈ Finset.range 1024, at2 (lhsArr m c) R (kb * 1024 + kk) * at2 (rhsArr m c) (kb * 1024 + kk) C

/-- The block product a point computes, at (p, r), is its step of the contraction for the entry's array position. -/
theorem pointSum_eq (c : Dev nD) (t : Fin cfg0.N) (p : Fin 2048) (r : Fin 1024) :
    ∑ k : Fin 1024, lhsBlk m c t (ix2 p k) * rhsBlk m c t (ix2 k r)
      = stepSum m c (t.val / 16 * 2048 + p.val) (t.val / 4 % 4 * 1024 + r.val) (t.val % 4) := by
  unfold stepSum
  rw [← Fin.sum_univ_eq_sum_range (fun kk => at2 (lhsArr m c) (t.val / 16 * 2048 + p.val) (t.val % 4 * 1024 + kk)
    * at2 (rhsArr m c) (t.val % 4 * 1024 + kk) (t.val / 4 % 4 * 1024 + r.val)) 1024]
  exact Finset.sum_congr rfl fun k _ => by rw [lhsBlock_apply, rhsBlock_apply]

set_option maxHeartbeats 400000 in
/-- At a first contraction step the accumulator is left at that step's sum. -/
theorem acc_at_first (c : Dev nD) (t : Fin cfg0.N) (h0 : t.val % 4 = 0) (p : Fin 2048) (r : Fin 1024) :
    (outsAt0 m c t.val t.isLt).2 (ix2 p r)
      = stepSum m c (t.val / 16 * 2048 + p.val) (t.val / 4 % 4 * 1024 + r.val) (t.val % 4) := by
  have h1 : ¬t.val % 4 = 3 := by omega
  rw [outsAt0_A m c t h0 h1]
  dsimp only
  refine (congrFun (Found.acc_first (F := Ideal) c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => h1 ((hcond0_1 t).mp h)) (lhsBlk m c t) (rhsBlk m c t) (biasBlk m c t)) (ix2 p r)).trans ?_
  refine (Arith.addProduct_apply (k0_pay1 (F := Ideal)) (lhsBlk m c t) (rhsBlk m c t) p r).trans ?_
  rw [Arith.zeroBlock_apply, zero_add]
  exact pointSum_eq m c t p r

set_option maxHeartbeats 400000 in
/-- At any later step it is what the point before left, plus the step's sum. -/
theorem acc_at_later (c : Dev nD) (t : Fin cfg0.N) (h0 : ¬t.val % 4 = 0) (p : Fin 2048) (r : Fin 1024) :
    (outsAt0 m c t.val t.isLt).2 (ix2 p r)
      = (outsAt0 m c (t.val - 1) (Nat.lt_of_le_of_lt (Nat.sub_le _ _) t.isLt)).2 (ix2 p r)
        + stepSum m c (t.val / 16 * 2048 + p.val) (t.val / 4 % 4 * 1024 + r.val) (t.val % 4) := by
  by_cases h1 : t.val % 4 = 3
  · rw [outsAt0_C m c t h0 h1]
    dsimp only
    refine (congrFun (Found.acc_last (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h1) (lhsBlk m c t) (rhsBlk m c t) (biasBlk m c t)
      (outsAt0 m c (t.val - 1) (Nat.lt_of_le_of_lt (Nat.sub_le _ _) t.isLt)).2) (ix2 p r)).trans ?_
    refine (Arith.addProduct_apply (outsAt0 m c (t.val - 1) (Nat.lt_of_le_of_lt (Nat.sub_le _ _) t.isLt)).2
      (lhsBlk m c t) (rhsBlk m c t) p r).trans ?_
    exact congrArg (_ + ·) (pointSum_eq m c t p r)
  · rw [outsAt0_B m c t h0 h1]
    dsimp only
    refine (congrFun (Found.acc_middle (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) (fun h => h1 ((hcond0_1 t).mp h)) (lhsBlk m c t) (rhsBlk m c t) (biasBlk m c t)
      (outsAt0 m c (t.val - 1) (Nat.lt_of_le_of_lt (Nat.sub_le _ _) t.isLt)).2) (ix2 p r)).trans ?_
    refine (Arith.addProduct_apply (outsAt0 m c (t.val - 1) (Nat.lt_of_le_of_lt (Nat.sub_le _ _) t.isLt)).2
      (lhsBlk m c t) (rhsBlk m c t) p r).trans ?_
    exact congrArg (_ + ·) (pointSum_eq m c t p r)

/-- THE RUNNING SUM: after point n = 16·I + 4·J + K the accumulator holds the steps 0..K of the contraction. -/
theorem acc_eq (c : Dev nD) : ∀ (n : ℕ) (h : n < cfg0.N) (p : Fin 2048) (r : Fin 1024),
    (outsAt0 m c n h).2 (ix2 p r)
      = ∑ kb ∈ Finset.range (n % 4 + 1), stepSum m c (n / 16 * 2048 + p.val) (n / 4 % 4 * 1024 + r.val) kb
  | 0, h, p, r => by
    refine (acc_at_first m c ⟨0, h⟩ rfl p r).trans ?_
    show stepSum m c (0 / 16 * 2048 + p.val) (0 / 4 % 4 * 1024 + r.val) (0 % 4) = _
    rw [show (0 : ℕ) % 4 + 1 = 1 from rfl, Finset.sum_range_one]
  | n + 1, h, p, r => by
    by_cases h0 : (n + 1) % 4 = 0
    · refine (acc_at_first m c ⟨n + 1, h⟩ h0 p r).trans ?_
      show stepSum m c ((n + 1) / 16 * 2048 + p.val) ((n + 1) / 4 % 4 * 1024 + r.val) ((n + 1) % 4) = _
      rw [h0, show (0 : ℕ) + 1 = 1 from rfl, Finset.sum_range_one]
    · refine (acc_at_later m c ⟨n + 1, h⟩ h0 p r).trans ?_
      show (outsAt0 m c n _).2 (ix2 p r)
        + stepSum m c ((n + 1) / 16 * 2048 + p.val) ((n + 1) / 4 % 4 * 1024 + r.val) ((n + 1) % 4) = _
      rw [acc_eq c n _ p r]
      have e1 : (n + 1) / 16 = n / 16 := by omega
      have e2 : (n + 1) / 4 % 4 = n / 4 % 4 := by omega
      have e3 : (n + 1) % 4 = n % 4 + 1 := by omega
      rw [e1, e2, e3, Finset.sum_range_succ _ (n % 4 + 1)]

set_option maxHeartbeats 400000 in
/-- At a last contraction step the output block is the accumulator the same point leaves, plus the bias row. -/
theorem out_eq_acc (c : Dev nD) (t : Fin cfg0.N) (h3 : t.val % 4 = 3) :
    (outsAt0 m c t.val t.isLt).1 = k0_pay3 (outsAt0 m c t.val t.isLt).2 (biasBlk m c t) := by
  have h0 : ¬t.val % 4 = 0 := by omega
  rw [outsAt0_C m c t h0 h3]
  dsimp only
  exact (Found.out_last (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h3) (lhsBlk m c t) (rhsBlk m c t) (biasBlk m c t)
      (outsAt0 m c (t.val - 1) (Nat.lt_of_le_of_lt (Nat.sub_le _ _) t.isLt)).2).trans
    (congrArg (fun a => k0_pay3 a (biasBlk m c t)) (Found.acc_last (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h3) (lhsBlk m c t) (rhsBlk m c t) (biasBlk m c t)
      (outsAt0 m c (t.val - 1) (Nat.lt_of_le_of_lt (Nat.sub_le _ _) t.isLt)).2).symm)

set_option maxHeartbeats 400000 in
/-- THE OUTPUT BLOCK at a last step, entry (p, r): all four steps of the contraction, plus the column's bias. -/
theorem out_apply (c : Dev nD) (t : Fin cfg0.N) (h3 : t.val % 4 = 3) (p : Fin 2048) (r : Fin 1024) :
    (outsAt0 m c t.val t.isLt).1 (ix2 p r)
      = (∑ kb ∈ Finset.range 4, stepSum m c (t.val / 16 * 2048 + p.val) (t.val / 4 % 4 * 1024 + r.val) kb)
        + at2 (biasArr m c) 0 (t.val / 4 % 4 * 1024 + r.val) := by
  rw [out_eq_acc m c t h3]
  refine (Arith.addBias_apply (outsAt0 m c t.val t.isLt).2 (biasBlk m c t) p r).trans ?_
  rw [acc_eq m c t.val t.isLt p r, biasBlock_apply, h3]

end Cert.KernelIdeal.Accum

end
-- ==== Proof.ResultMatrix.lean ====
/-
  The whole result matrix after the region.

  The output's [2048, 1024] blocks (I, J), I, J < 4, tile the [8192, 4096] result; block (I, J) is written back once, at
  the last contraction step t = 16·I + 4·J + 3, and holds for its entry (p, r) — array position (R, C) = (I·2048 + p,
  J·1024 + r) — all four steps of the contraction plus the column's bias. Four consecutive blocks of 1024 products are
  one sum over 4096, so the array ends as
      result(R, C) = Σ_{K < 4096} left(R, K) · right(K, C) + bias(0, C),
  one function of the three arrays the region was handed. The regrouping uses associativity and commutativity of
  addition on the extended reals only, so no finiteness of the entries is needed.
-/
import proofs.«154130_j83588653515071_2_alg».proof.Proof.Gen.KernelIdeal.Frame
import proofs.«154130_j83588653515071_2_alg».proof.Proof.Blocks
import proofs.«154130_j83588653515071_2_alg».proof.Proof.Accumulate
import Idealize.ShloMosaic.Lib.Pipeline.Value

noncomputable section

open Idealize.ShloMosaic Idealize.ShloMosaic.TcCoe Idealize.SL.Sem Idealize.ShloMosaic.ValueIdx

namespace Cert.KernelIdeal.Result

open Cert.KernelIdeal Cert.KernelIdeal.Gen Cert.KernelIdeal.Blocks Cert.KernelIdeal.Accum Cert.NatIndexed
open Idealize.ShloMosaic.Pipeline (Dat)

/-- The matrix product with a bias row: entry (R, C) is Σ_K L(R, K) · Rt(K, C) + B(0, C). -/
def product (L : S8192x4096.Idx → EReal) (Rt : S4096x4096.Idx → EReal) (B : S1x4096.Idx → EReal) : S8192x4096.Idx → EReal :=
  fun i => (∑ K : Fin 4096, L (ix2 (i 0) K) * Rt (ix2 K (i 1))) + B (ix2 (0 : Fin 1) (i 1))

variable (m : (ℓ : Loc nD τ sig) → Buf (Elt Ideal) ℓ)

/-- The product of the region's arrays at an index, by natural-number coordinates: four steps of 1024 products, and the
    column's bias. -/
theorem product_steps (c : Dev nD) (i : S8192x4096.Idx) :
    product (lhsArr m c) (rhsArr m c) (biasArr m c) i
      = (∑ kb ∈ Finset.range 4, stepSum m c (i 0).val (i 1).val kb) + at2 (biasArr m c) 0 (i 1).val := by
  unfold product stepSum
  rw [sum_four_blocks (fun n => at2 (lhsArr m c) (i 0).val n * at2 (rhsArr m c) n (i 1).val)]
  refine congrArg₂ (· + ·) (Finset.sum_congr rfl fun K _ => ?_) ?_
  · exact congrArg₂ (· * ·) (at2_ix2 (lhsArr m c) (i 0) K).symm (at2_ix2 (rhsArr m c) K (i 1)).symm
  · exact (at2_ix2 (biasArr m c) (0 : Fin 1) (i 1)).symm

/-- WHAT A WRITE-BACK WRITES: at a last contraction step, the output block is the product's block there. -/
theorem flushed_eq (c : Dev nD) (t : Fin cfg0.N) (hf : (cfg0.win 3).flush t = true) :
    (dats m 0 c).flushed 3 t
      = ((cfg0.win 3).blk t).view.read (Elt Ideal) (product (lhsArr m c) (rhsArr m c) (biasArr m c)) := by
  have h3 : t.val % 4 = 3 := (flush0_3 t).mp hf
  show (cfg0.win 3).cut (grid0.coords t) ((dats m 0 c).after 3 t) = _
  rw [after0_3]
  funext y
  obtain ⟨p, r, rfl⟩ : ∃ (p : Fin 2048) (r : Fin 1024), y = ix2 p r := ⟨y 0, y 1, eq_ix2 y⟩
  show (outsAt0 m c t.val t.isLt).1 (ix2 p r) = _
  rw [out_apply m c t h3 p r, View.read_apply]
  show _ = product (lhsArr m c) (rhsArr m c) (biasArr m c) (((cfg0.win 3).blk t).view.emb (ix2 p r))
  rw [product_steps m c (((cfg0.win 3).blk t).view.emb (ix2 p r))]
  exact (congrArg₂ (fun a b => (∑ kb ∈ Finset.range 4, stepSum m c a b kb) + at2 (biasArr m c) 0 b)
    (out_row_pos t p r (block_of_point t).2.2.2.2.2.2.1) (out_col_pos t p r (block_of_point t).2.2.2.2.2.2.2)).symm

/-- An index of the result is in point t's output block iff each coordinate is in the block's range on its axis. -/
theorem mem_out_blk (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v26).slice (win0_3.rect t)).set ↔ _
  rw [View.set_slice_whole, Rect.mem_set_unit]
  exact Iff.rfl

/-- THE COVER: every index (R, C) of the result is in the block written back at t = 16·(R / 2048) + 4·(C / 1024) + 3. -/
theorem covered (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 64 := N_0
  obtain ⟨t, ht⟩ : ∃ t : Fin cfg0.N, t.val = 16 * ((i 0).val / 2048) + 4 * ((i 1).val / 1024) + 3 :=
    ⟨⟨16 * ((i 0).val / 2048) + 4 * ((i 1).val / 1024) + 3, by rw [hN]; omega⟩, rfl⟩
  refine ⟨t, (flush0_3 t).mpr (by omega), ?_⟩
  rw [mem_out_blk]
  have e0 : win0_3.index t 0 = t.val / 16 := (block_of_point t).2.2.2.2.2.2.1
  have e1 : win0_3.index t 1 = t.val / 4 % 4 := (block_of_point t).2.2.2.2.2.2.2
  intro a
  match a with
  | ⟨0, _⟩ =>
    show win0_3.index t 0 * 2048 ≤ (i 0).val ∧ (i 0).val < win0_3.index t 0 * 2048 + 2048
    rw [e0]; omega
  | ⟨1, _⟩ =>
    show win0_3.index t 1 * 1024 ≤ (i 1).val ∧ (i 1).val < win0_3.index t 1 * 1024 + 1024
    rw [e1]; omega

/-- THE RESULT ARRAY after the region: the product of the three arrays the region was handed. -/
theorem final (c : Dev nD) :
    (dats m 0 c).arrAt 3 cfg0.N = product (lhsArr m c) (rhsArr m c) (biasArr m c) :=
  (dats m 0 c).arrAt_eq_of_cover 3 (product (lhsArr m c) (rhsArr m c) (biasArr m c)) (flushed_eq m c) covered

end Cert.KernelIdeal.Result

end
-- ==== Proof.HostSide.lean ====
/-
  The host operations around the region, read back.

  Before the region the program computes the quantized weight W from the weight input, the outlier weights and the
  outlier column indices (row means, centring, row mean absolute values, sign times scale, then the outlier columns
  scattered in); it hands the region  W transposed (with a change of float format that is the identity at the exact
  values) as the right operand, the input reshaped from [4, 2048, 4096] to [8192, 4096] as the left operand, and the bias
  reshaped to a row. After the region the [8192, 4096] result is reshaped to [4, 2048, 4096]. W is kept as ONE function of
  the three inputs it depends on: the reference computes the same function, so it is never opened.
-/
import proofs.«154130_j83588653515071_2_alg».proof.Proof.Gen.KernelIdeal.Frame
import proofs.«154130_j83588653515071_2_alg».proof.Proof.StagedArrays
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.HostSide

open Cert.KernelIdeal Cert.KernelIdeal.Gen Cert.KernelIdeal.Blocks
open Idealize.ShloMosaic.Pipeline (Dat)

section
variable {F : FTy → Type} [FloatOps F]

/-- The quantized weight with its outlier columns, as the program computes it on the host from the weight `x1`, the
    outlier weights `x3` and the outlier column indices `x4`. -/
def weight (x1 : (⟨S4096x4096, .f32⟩ : BufTy).Contents (Elt F)) (x3 : (⟨S4096x204, .f32⟩ : BufTy).Contents (Elt F))
    (x4 : (⟨S204, .i32⟩ : BufTy).Contents (Elt F)) : (⟨S4096x4096, .f32⟩ : BufTy).Contents (Elt F) :=
  Host.scatter scatter_S4096x4096_S204x1_S4096x204_0_1_1_1 (fun _ b => b) (mulf (Host.sign (subf x1 (broadcastInDim S4096x4096 ![0, 1] bcast_S4096x1_S4096x4096_0_1 (Host.divf (broadcastInDim S4096x1 ![0] bcast_S4096_S4096x1_0 (Host.reduceAdd x1 (constant S_ .f32 0x00000000#32) reducesTo_S4096x4096_S4096_d1 h_S_)) (broadcastInDim S4096x1 ![] bcast_S_S4096x1 (constant S_ .f32 0x45800000#32)))))) (broadcastInDim S4096x4096 ![0, 1] bcast_S4096x1_S4096x4096_0_1 (Host.divf (broadcastInDim S4096x1 ![0] bcast_S4096_S4096x1_0 (Host.reduceAdd (Host.absf (subf x1 (broadcastInDim S4096x4096 ![0, 1] bcast_S4096x1_S4096x4096_0_1 (Host.divf (broadcastInDim S4096x1 ![0] bcast_S4096_S4096x1_0 (Host.reduceAdd x1 (constant S_ .f32 0x00000000#32) reducesTo_S4096x4096_S4096_d1 h_S_)) (broadcastInDim S4096x1 ![] bcast_S_S4096x1 (constant S_ .f32 0x45800000#32)))))) (constant S_ .f32 0x00000000#32) reducesTo_S4096x4096_S4096_d1 h_S_)) (broadcastInDim S4096x1 ![] bcast_S_S4096x1 (constant S_ .f32 0x45800000#32))))) (broadcastInDim S204x1 ![0] bcast_S204_S204x1_0 (select (cmpi .slt x4 (broadcastInDim S204 ![] bcast_S_S204 (constantI S_ 32 0#32))) (addi x4 (broadcastInDim S204 ![] bcast_S_S204 (constantI S_ 32 4096#32))) x4)) x3
end

variable (m : (ℓ : Loc nD τ sig) → Buf (Elt Ideal) ℓ)

/-- What the region finds in a buffer is what the host operations before it leave there. -/
theorem V_eq_after (c : Dev nD) (b : Ref sig .tc) :
    V m c b = StableHlo.after hostOps0 (fun b' => m (c, b')) (Proc.devRef .tc b) := by
  show StableHlo.after (List.flatten [hostOps0]) (fun b' => m (c, b')) (Proc.devRef .tc b) = _
  rw [List.flatten_cons, List.flatten_nil, List.append_nil]

/-- The left operand handed to the region: the input reshaped to [8192, 4096]. -/
theorem lhsArr_eq (c : Dev nD) :
    lhsArr m c = truncf (F := Ideal) .bf16 (shapeCast S8192x4096 (m ((c.tc : Thread nD τ).loc main_arg0)) shapeCasts_S4x2048x4096_S8192x4096) bitsLt_bf16_f32 := by
  rw [lhsArr_def, V_eq_after]
  after_results
  rfl

set_option maxHeartbeats 2000000 in
/-- The right operand handed to the region: the weight, transposed. -/
theorem rhsArr_eq (c : Dev nD) :
    rhsArr m c = transpose S4096x4096 [1, 0]
      (truncf (F := Ideal) .bf16 (weight (F := Ideal) (m ((c.tc : Thread nD τ).loc main_arg1)) (m ((c.tc : Thread nD τ).loc main_arg3))
        (m ((c.tc : Thread nD τ).loc main_arg4))) bitsLt_bf16_f32) transposes_S4096x4096_S4096x4096_1_0 := by
  rw [rhsArr_def, V_eq_after]
  after_results
  rfl

/-- The bias handed to the region: the bias as a row. -/
theorem biasArr_eq (c : Dev nD) :
    biasArr m c = shapeCast S1x4096 (m ((c.tc : Thread nD τ).loc main_arg2)) shapeCasts_S4096_S1x4096 := by
  rw [biasArr_def, V_eq_after]
  after_results
  rfl

/-- The program's result: the region's result array reshaped to [4, 2048, 4096]. -/
theorem tail_eq (c : Dev nD) :
    Pipeline.afterTail₀ cfgs (dats m) 0 (V0 m) [hostOps1] c main_v27
      = shapeCast S4x2048x4096 ((dats m 0 c).arrAt 3 cfg0.N) shapeCasts_S8192x4096_S4x2048x4096 := by
  unfold Pipeline.afterTail₀
  show StableHlo.after hostOps1 _ (Proc.devRef .tc main_v27) = _
  after_results
  exact congrArg (fun A => shapeCast S4x2048x4096 A shapeCasts_S8192x4096_S4x2048x4096)
    (Pipeline.withArrays_arr spec0 launch0.win.arr_inj c _ _ 3)

end Cert.KernelIdeal.HostSide

end
-- ==== Proof.KernelRun.lean ====
/-
  The kernel program's run, with its result named.

  Every weakly fair execution terminates without a fault; the result holds the region's result matrix — the product
  of the three arrays the region was handed — reshaped from [8192, 4096] to [4, 2048, 4096]; the five inputs end unchanged.
-/
import proofs.«154130_j83588653515071_2_alg».proof.Proof.Gen.KernelIdeal.Frame
import proofs.«154130_j83588653515071_2_alg».proof.Proof.ResultMatrix
import proofs.«154130_j83588653515071_2_alg».proof.Proof.HostSide

noncomputable section

open Idealize.ShloMosaic Idealize.ShloMosaic.TcCoe Idealize.SL.Sem Idealize.ShloMosaic.ValueIdx

namespace Cert.KernelIdeal.RunValue

open Cert.KernelIdeal Cert.KernelIdeal.Gen Cert.KernelIdeal.Blocks Cert.KernelIdeal.Result Cert.KernelIdeal.HostSide
open Idealize.ShloMosaic.Pipeline (Dat)

variable (m : (ℓ : Loc nD τ sig) → Buf (Elt Ideal) ℓ) (ρ : Dev nD → PrngReg)

/-- The program's result on core c. -/
def result (c : Dev nD) : S4x2048x4096.Idx → EReal :=
  shapeCast S4x2048x4096 (product (lhsArr m c) (rhsArr m c) (biasArr m c)) shapeCasts_S8192x4096_S4x2048x4096

theorem run : θ_run defs (onTc (τ := τ) (main (F := Ideal))) ⟨m, fun _ => 0, ρ⟩ (fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v27 (Pipeline.mem_restRefs_of main_v27 (by decide) (by decide))).trans
        ((tail_eq m c).trans (congrArg (fun A => shapeCast S4x2048x4096 A shapeCasts_S8192x4096_S4x2048x4096) (final m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.RunValue

end
-- ==== Proof.Bridge.lean ====
/-
  The kernel's result is the reference's function of the inputs.

  Write x for the input [4, 2048, 4096], W for the quantized weight with its outlier columns [4096, 4096] (one function of
  the weight, the outlier weights and the outlier indices, computed by the same host operations in both programs) and
  bias for the bias [4096]. The kernel's result at (b, s, o) is entry (b·2048 + s, o) of the region's product:
      Σ_{K < 4096} x(b, s, K) · W(o, K) + bias(o),
  since the left operand is x with its first two axes merged, the right operand is W transposed and the bias row is the
  bias. The reference contracts x's last axis with W's last axis and adds the bias broadcast over (b, s): the same sum,
  term by term.
-/
import proofs.«154130_j83588653515071_2_alg».proof.Proof.Gen.ReferenceIdeal.Read
import proofs.«154130_j83588653515071_2_alg».proof.Proof.KernelRun
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Bridge

open Cert.KernelIdeal Cert.KernelIdeal.Gen Cert.KernelIdeal.Blocks Cert.KernelIdeal.Result Cert.KernelIdeal.HostSide
open Cert.KernelIdeal.RunValue

/-- The kernel's host operations and the reference's compute the weight by the same term. -/
theorem weight_eq_reference (x1 : (⟨S4096x4096, .f32⟩ : BufTy).Contents (Elt Ideal)) (x3 : (⟨S4096x204, .f32⟩ : BufTy).Contents (Elt Ideal))
    (x4 : (⟨S204, .i32⟩ : BufTy).Contents (Elt Ideal)) :
    weight (F := Ideal) x1 x3 x4 = Cert.ReferenceIdeal.Read.val_main_v20 (F := Ideal) x1 x3 x4 := rfl

variable (m : (ℓ : Loc nD τ sig) → Buf (Elt Ideal) ℓ)

/-- The input x on core c: [4, 2048, 4096]. -/
abbrev inX (c : Dev nD) : S4x2048x4096.Idx → EReal := m ((c.tc : Thread nD τ).loc main_arg0)
/-- The weight W on core c, as the host operations compute it: [4096, 4096]. -/
abbrev inW (c : Dev nD) : S4096x4096.Idx → EReal :=
  weight (F := Ideal) (m ((c.tc : Thread nD τ).loc main_arg1)) (m ((c.tc : Thread nD τ).loc main_arg3)) (m ((c.tc : Thread nD τ).loc main_arg4))
/-- The bias on core c: [4096]. -/
abbrev inB (c : Dev nD) : S4096.Idx → EReal := m ((c.tc : Thread nD τ).loc main_arg2)

/-- The left operand at (b·2048 + s, K) is the input at (b, s, K): a reshape keeps row-major positions. -/
theorem lhs_entry (c : Dev nD) (b : Fin 4) (s : Fin 2048) (K : Fin 4096) (R : Fin 8192) (hR : R.val = b.val * 2048 + s.val) :
    lhsArr m c (ix2 R K) = inX m c (ix3 b s K) := by
  rw [lhsArr_eq]
  show (shapeCast S8192x4096 (inX m c) shapeCasts_S4x2048x4096_S8192x4096 : S8192x4096.Idx → EReal) (ix2 R K) = _
  refine shapeCast_apply (inX m c) shapeCasts_S4x2048x4096_S8192x4096 (ix2 R K) (ix3 b s K) ?_
  rw [Shape.rowMajor_val_two, Shape.rowMajor_val_three]
  show (b.val * 2048 + s.val) * 4096 + K.val = R.val * 4096 + K.val
  rw [hR]

/-- The right operand at (K, o) is the weight at (o, K): a transpose. -/
theorem rhs_entry (c : Dev nD) (K : Fin 4096) (o : Fin 4096) :
    rhsArr m c (ix2 K o) = inW m c (ix2 o K) := by
  rw [rhsArr_eq]
  refine (transpose_apply [1, 0] _ transposes_S4096x4096_S4096x4096_1_0 (ix2 K o) (ix2 o K) (fun bx => ?_)).trans ?_
  · match bx with
    | ⟨0, _⟩ => rfl
    | ⟨1, _⟩ => rfl
  · exact truncf_apply _ _ (ix2 o K)

/-- The bias row at (0, o) is the bias at o. -/
theorem bias_entry (c : Dev nD) (o : Fin 4096) :
    biasArr m c (ix2 (0 : Fin 1) o) = inB m c (ix1 o) := by
  rw [biasArr_eq]
  refine shapeCast_apply _ shapeCasts_S4096_S1x4096 (ix2 (0 : Fin 1) o) (ix1 o) ?_
  rw [Shape.rowMajor_val_one, Shape.rowMajor_val_two]
  show o.val = 0 * 4096 + o.val
  omega

/-- THE KERNEL'S RESULT at (b, s, o). -/
theorem result_apply (c : Dev nD) (b : Fin 4) (s : Fin 2048) (o : Fin 4096) :
    result m c (ix3 b s o)
      = (∑ K : Fin 4096, inX m c (ix3 b s K) * inW m c (ix2 o K)) + inB m c (ix1 o) := by
  have hrow : b.val * 2048 + s.val < 8192 := by have := b.isLt; have := s.isLt; omega
  unfold result
  refine (shapeCast_apply _ shapeCasts_S8192x4096_S4x2048x4096 (ix3 b s o) (ix2 (⟨b.val * 2048 + s.val, hrow⟩ : Fin 8192) o) ?_).trans ?_
  · rw [Shape.rowMajor_val_two, Shape.rowMajor_val_three]
    rfl
  · unfold product
    exact congrArg₂ (· + ·)
      (Finset.sum_congr rfl fun K _ => congrArg₂ (· * ·) (lhs_entry m c b s K ⟨b.val * 2048 + s.val, hrow⟩ rfl) (rhs_entry m c K o))
      (bias_entry m c o)

/-- The reference reads the input, for output (b, s, o) and contraction index K, at (b, s, K); -/
theorem lhs_index (b : Fin 4) (s : Fin 2048) (o : Fin 4096) (K : Fin 4096) :
    Cert.ReferenceIdeal.Read.lidx_main_v21 (ix3 b s o) K = ix3 b s K :=
  funext fun a => Fin.ext (by match a with | ⟨0, _⟩ => rfl | ⟨1, _⟩ => rfl | ⟨2, _⟩ => rfl)

/-- the weight at (o, K); -/
theorem rhs_index (b : Fin 4) (s : Fin 2048) (o : Fin 4096) (K : Fin 4096) :
    Cert.ReferenceIdeal.Read.ridx_main_v21 (ix3 b s o) K = ix2 o K :=
  funext fun a => Fin.ext (by match a with | ⟨0, _⟩ => rfl | ⟨1, _⟩ => rfl)

/-- and the bias, broadcast over (b, s), at o. -/
theorem bias_index (b : Fin 4) (s : Fin 2048) (o : Fin 4096) :
    Cert.ReferenceIdeal.Read.idx_main_v22 (Cert.ReferenceIdeal.Read.idx_main_v23 (ix3 b s o)) = ix1 o :=
  funext fun a => Fin.ext (by match a with | ⟨0, _⟩ => rfl)

/-- THE BRIDGE: the kernel's result is the reference's result term of the same inputs. -/
theorem result_eq_reference (c : Dev nD) :
    result m c = Cert.ReferenceIdeal.Read.val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨b, s, o, rfl⟩ : ∃ (b : Fin 4) (s : Fin 2048) (o : Fin 4096), i = ix3 b s o := ⟨i 0, i 1, i 2, eq_ix3 i⟩
  rw [result_apply m c b s o, Cert.ReferenceIdeal.Read.val_main_v24_apply, Cert.ReferenceIdeal.Read.val_main_v21_apply,
    Cert.ReferenceIdeal.Read.val_main_v23_apply, Cert.ReferenceIdeal.Read.val_main_v22_apply, bias_index b s o]
  show _ = _ + _
  refine congrArg₂ (· + ·) (Finset.sum_congr rfl fun K _ => ?_) rfl
  rw [lhs_index b s o K, rhs_index b s o K]
  exact congrArg (inX m c (ix3 b s K) * ·)
    (congrFun (weight_eq_reference (m ((c.tc : Thread nD τ).loc main_arg1)) (m ((c.tc : Thread nD τ).loc main_arg3)) (m ((c.tc : Thread nD τ).loc main_arg4))) (ix2 o K))

end Cert.KernelIdeal.Bridge

end
-- ==== Proof.lean ====
/-
  A linear layer whose weight is binarized row by row, with a few full-precision outlier columns put back, against its
  plain array reference: the two programs compute the same [4, 2048, 4096] result over the extended reals.

  Both programs build the weight W [4096, 4096] by the same host operations: each row of the weight input is centred by its
  mean, replaced by its signs scaled by the row's mean absolute value, and the outlier columns are scattered in. The
  reference then contracts the input x [4, 2048, 4096] with W along their last axes and adds the bias:
      out(b, s, o) = Σ_{K < 4096} x(b, s, K) · W(o, K) + bias(o).
  The kernel program merges x's first two axes into 8192 rows, transposes W, and runs a tiled matrix product on a
  4 × 4 × 4 grid: output block (I, J) of 2048 × 1024 entries is accumulated over four steps K of the contraction axis, each
  adding the product of a 2048 × 1024 block of x with a 1024 × 1024 block of the transposed weight to an accumulator that is
  cleared at K = 0; at K = 3 the bias row is added and the block is written out. At the exact values the changes of
  float format are the identity and a block product is a plain sum of 1024 products, so the accumulator after step K
  holds the first (K + 1)·1024 products of the entry's sum, and four consecutive blocks of 1024 are the whole sum over
  4096. Only associativity and commutativity of addition on the extended reals are used, and neutrality of zero: the
  precondition (finite inputs) is never opened, and the outlier indices enter only through W, which is never opened.

  The frames of the two kernel programs are the generated ones; the reference's frame is its generated run with the
  result dropped; the idealization rewrote no operation, so there is nothing to preserve.
-/
import proofs.«154130_j83588653515071_2_alg».proof.Defs
import proofs.«154130_j83588653515071_2_alg».proof.Proof.Gen.Kernel
import proofs.«154130_j83588653515071_2_alg».proof.Proof.Gen.Kernel.Skeleton
import proofs.«154130_j83588653515071_2_alg».proof.Proof.Gen.Kernel.Launch
import proofs.«154130_j83588653515071_2_alg».proof.Proof.Gen.Kernel.Points
import proofs.«154130_j83588653515071_2_alg».proof.Proof.Gen.Kernel.Frame
import proofs.«154130_j83588653515071_2_alg».proof.Proof.Gen.KernelIdeal
import proofs.«154130_j83588653515071_2_alg».proof.Proof.Gen.KernelIdeal.Skeleton
import proofs.«154130_j83588653515071_2_alg».proof.Proof.Gen.KernelIdeal.Launch
import proofs.«154130_j83588653515071_2_alg».proof.Proof.Gen.KernelIdeal.Points
import proofs.«154130_j83588653515071_2_alg».proof.Proof.Gen.KernelIdeal.Frame
import proofs.«154130_j83588653515071_2_alg».proof.Proof.Gen.ReferenceIdeal
import proofs.«154130_j83588653515071_2_alg».proof.Proof.Gen.ReferenceIdeal.Run
import proofs.«154130_j83588653515071_2_alg».proof.Proof.Gen.ReferenceIdeal.Read
import proofs.«154130_j83588653515071_2_alg».proof.Proof.Gen.Pre_finite_inputs
import proofs.«154130_j83588653515071_2_alg».proof.Proof.KernelRun
import proofs.«154130_j83588653515071_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the exact values the kernel program's result is the region's product reshaped (its run, read) and the reference's
    is its contraction plus bias (its generated run) of inputs that agree: one function, entry by entry. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2.1,
    (hagree c).2.2.2.2]
  exact (Cert.KernelIdeal.Bridge.result_eq_reference m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
